-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S128x64 .f32) (main_arg3 : FVec F S128 .f32) (main_arg4 : FVec F S128x64 .f32) (main_arg5 : FVec F S64x128 .f32) (main_arg6 : FVec F S64 .f32) (main_arg7 : FVec F S64x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x64 : Shape := ⟨2, ![1, 64]⟩

abbrev nBuf : Space → Nat
  | .hbm => 66
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x64, .f32⟩
  | .hbm, ⟨65, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S1x128, .f32⟩
  | .local _ .vmem, ⟨6, _⟩ => ⟨S128x64, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S64x128, .f32⟩
  | .local _ .vmem, ⟨14, _⟩ => ⟨S1x64, .f32⟩
  | .local _ .vmem, ⟨15, _⟩ => ⟨S64x128, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S5000x128_S5000x128 : S5000x128.ShapeCasts S5000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S64x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S128x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run, with the result named.

  @main is four stretches: host operations, the first pallas_call, host operations, the second pallas_call.
  The buffer contents at the end of each stretch are a fold from the launch memory; every weakly fair
  execution terminates with every buffer that outlives the kernels at the last stage of that fold. Read at
  the result buffer this is what the second call leaves in its output array; read at an argument it is the
  launch contents.
-/
import proofs.«176872_j6949257085648_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, without a fault, with the result buffer at the last
    stage of the fold and the arguments as launched. -/
theorem run : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.DenseCell.lean ====
/-
  One SAGE layer at one entry, over the extended reals.

  At row r and output feature c the layer is
      max( Σ_k a(r,k)·wl(c,k) + Σ_k x(r,k)·wr(c,k) + b(c) , 0 ),
  a : the neighbourhood mean, x : the node's own features, wl / wr : the two weight matrices (each used
  transposed: the sum runs over the weight's SECOND axis), b : the bias.  Addition of extended reals is
  commutative and associative, so the grouping (A + B) + b of one program and (A + b) + B of the other
  agree with no finiteness assumption.
  The vector form: two matrix products into zero accumulators, each right operand a transposed weight
  matrix, the operands narrowed (a change of float format, the identity here), their sum, the bias row
  broadcast down the rows, and the maximum with the zero splat, read at an index.
-/
import proofs.«176872_j6949257085648_1_alg».proof.Proof.LibMatmul
import Idealize.ShloMosaic.Lib.Pipeline.Value
import Idealize.ShloMosaic.Lib.ValueIdx
import Idealize.ShloMosaic.PureOps.Ideal.Laws

noncomputable section

namespace SageLayer

open Idealize.ShloMosaic Idealize.ShloMosaic.ValueIdx LibMatmul

/-- The layer at one entry, from the row of means, the row of features, the two weight rows of the output
    feature and its bias. The zero is kept as the float word both programs spell. -/
def cell {K : Nat} (a x wl wr : Fin K → EReal) (b : EReal) : EReal :=
  max ((∑ k, a k * wl k) + (∑ k, x k * wr k) + b) (Ideal.ofBits .f32 0x00000000#32)

/-- The other grouping of the three summands is the same entry. -/
theorem cell_regroup {K : Nat} (a x wl wr : Fin K → EReal) (b : EReal) :
    max (((∑ k, a k * wl k) + b) + (∑ k, x k * wr k)) (Ideal.ofBits .f32 0x00000000#32) = cell a x wl wr b := by
  unfold cell; rw [add_right_comm]

/-- Entries built from equal rows are equal. -/
theorem cell_congr {K : Nat} {a a' x x' wl wl' wr wr' : Fin K → EReal} {b b' : EReal}
    (ha : ∀ k, a k = a' k) (hx : ∀ k, x k = x' k) (hwl : ∀ k, wl k = wl' k) (hwr : ∀ k, wr k = wr' k) (hb : b = b') :
    cell a x wl wr b = cell a' x' wl' wr' b' := by
  rw [funext ha, funext hx, funext hwl, funext hwr, hb]

/-- A product with a transposed weight matrix, into the zero accumulator, at an index: the sum over the
    weight's second axis. -/
theorem matmul_transposed_apply (M K N : Nat) (A : FVec Ideal ⟨2, ![M, K]⟩ .f32) (W : FVec Ideal ⟨2, ![N, K]⟩ .f32)
    (hb : FTy.bf16.bits < FTy.f32.bits) (hT : (⟨2, ![N, K]⟩ : Shape).Transposes [1, 0] ⟨2, ![K, N]⟩)
    (j : (⟨2, ![M, N]⟩ : Shape).Idx) :
    matmul (DotDims.plain M K N) none (truncf .bf16 A hb) (transpose ⟨2, ![K, N]⟩ [1, 0] (truncf .bf16 W hb) hT)
        (constant (F := Ideal) ⟨2, ![M, N]⟩ .f32 0x00000000#32) j
      = ∑ k : Fin K, A (ix2 (rowOf j) k) * W (ix2 (colOf j) k) := by
  show FloatOps.matmul _ _ _ _ _ j = _
  rw [Ideal.matmul_constant_zero_apply]
  refine (plain_sum M K N _ _ j).trans (Finset.sum_congr rfl fun k _ => ?_)
  rw [transpose_apply [1, 0] _ hT (ix2 k (colOf j)) (ix2 (colOf j) k) (fun b => by
    match b with
    | ⟨0, _⟩ => rfl
    | ⟨1, _⟩ => rfl)]
  rfl

/-- The layer's vector form at an index is the layer's entry. -/
theorem dense_apply (M K N : Nat) (A X : FVec Ideal ⟨2, ![M, K]⟩ .f32) (WL WR : FVec Ideal ⟨2, ![N, K]⟩ .f32)
    (B : FVec Ideal ⟨2, ![1, N]⟩ .f32)
    (hb : FTy.bf16.bits < FTy.f32.bits) (hT : (⟨2, ![N, K]⟩ : Shape).Transposes [1, 0] ⟨2, ![K, N]⟩)
    (hB : (⟨2, ![1, N]⟩ : Shape).Broadcasts ⟨2, ![M, N]⟩) (j : (⟨2, ![M, N]⟩ : Shape).Idx) :
    maximumf (addf (addf
        (matmul (DotDims.plain M K N) none (truncf .bf16 A hb) (transpose ⟨2, ![K, N]⟩ [1, 0] (truncf .bf16 WL hb) hT)
          (constant (F := Ideal) ⟨2, ![M, N]⟩ .f32 0x00000000#32))
        (matmul (DotDims.plain M K N) none (truncf .bf16 X hb) (transpose ⟨2, ![K, N]⟩ [1, 0] (truncf .bf16 WR hb) hT)
          (constant (F := Ideal) ⟨2, ![M, N]⟩ .f32 0x00000000#32)))
        (broadcastTo ⟨2, ![M, N]⟩ B hB))
      (broadcast ⟨2, ![M, N]⟩ (Scalar.ofBits (F := Ideal) .f32 0x00000000#32)) j
    = cell (fun k => A (ix2 (rowOf j) k)) (fun k => X (ix2 (rowOf j) k)) (fun k => WL (ix2 (colOf j) k))
        (fun k => WR (ix2 (colOf j) k)) (B (ix2 (0 : Fin 1) (colOf j))) := by
  have hbias : broadcastTo ⟨2, ![M, N]⟩ B hB j = B (ix2 (0 : Fin 1) (colOf j)) :=
    broadcastTo_apply B hB j (ix2 (0 : Fin 1) (colOf j)) (fun a => by
      match a with
      | ⟨0, _⟩ => show (0 : Nat) = if (1 : Nat) = 1 then 0 else _; rw [if_pos rfl]
      | ⟨1, _⟩ =>
        show (j 1).val = if N = 1 then 0 else (j 1).val
        have := idx2_lt1 j
        split <;> omega)
  show max (matmul _ _ _ _ _ j + matmul _ _ _ _ _ j + broadcastTo _ B hB j) _ = _
  rw [matmul_transposed_apply, matmul_transposed_apply, hbias]
  rfl

end SageLayer

end
-- ==== Proof.Layer1Array.lean ====
/-
  The first pallas_call's output array, as one function of the arrays the call is entered with.

  The call walks 20 row blocks of 5000 rows. At block t it reads rows 5000·t … 5000·t+4999 of the mean
  matrix and of the feature matrix, the two whole weight matrices and the bias row, and writes the same rows
  of the 100000 × 128 output. Every output entry (r, c) therefore depends only on row r of the two
  row-blocked inputs, row c of each weight matrix and entry c of the bias: it is the layer's entry
  `SageLayer.cell`. The 20 blocks tile the output, so after the call the whole array is that function.
-/
import proofs.«176872_j6949257085648_1_alg».proof.Proof.Gen.KernelIdeal.Frame
import proofs.«176872_j6949257085648_1_alg».proof.Proof.DenseCell
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem LibMatmul
open Idealize.ShloMosaic.Pipeline (Dat Cfg Window)

variable (V : (c : Dev nD) → (b : Ref sig .tc) → Buf (Elt Ideal) ((c : Thread nD τ).loc b))

/-- The layer as a whole-array function: entry (r, c) from row r of the means and of the features, row c of each
    weight matrix, entry c of the bias row. -/
def layer (mean x : S100000x64.Idx → EReal) (wl : S128x64.Idx → EReal) (b : S1x128.Idx → EReal) (wr : S128x64.Idx → EReal) :
    S100000x128.Idx → EReal := fun i =>
  SageLayer.cell (fun k : Fin 64 => mean (ix2 (rowOf i) k)) (fun k : Fin 64 => x (ix2 (rowOf i) k))
    (fun k : Fin 64 => wl (ix2 (colOf i) k)) (fun k : Fin 64 => wr (ix2 (colOf i) k)) (b (ix2 (0 : Fin 1) (colOf i)))

theorem origin_zero : (![0, 0] : Fin 2 → Nat) = fun _ => 0 := funext fun a => by fin_cases a <;> rfl

/-- The body's stored value at an index of the block: the layer's entry of the loaded blocks. -/
theorem stored_apply (x0 x1 : Vec Ideal S5000x64 .f32) (x2 x4 : Vec Ideal S128x64 .f32) (x3 : Vec Ideal S1x128 .f32)
    (j : S5000x128.Idx) :
    k0_pay1 (F := Ideal) x0 x1 x2 x4 x3 j
      = SageLayer.cell (fun k : Fin 64 => x0 (ix2 (rowOf j) k)) (fun k : Fin 64 => x1 (ix2 (rowOf j) k))
          (fun k : Fin 64 => x2 (ix2 (colOf j) k)) (fun k : Fin 64 => x4 (ix2 (colOf j) k)) (x3 (ix2 (0 : Fin 1) (colOf j))) := by
  unfold k0_pay1
  rw [shapeCast_self, shapeCast_self]
  exact SageLayer.dense_apply 5000 64 128 x0 x1 x2 x4 x3 bitsLt_bf16_f32 transposes_S128x64_p1_0_S64x128
    broadcasts_S1x128_S5000x128 j

/-- The printed index maps over the 20 grid points: the row-blocked windows move with the output's row block, the
    weights and the bias stay at block 0, and the output's row block is the point's number. -/
theorem index_facts : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every row block of the output is some point's. -/
theorem index_onto : ∀ q : Fin 20, ∃ t : Fin cfg0.N, win0_5.index t = ![q.val, 0] :=
  (by decide +kernel : ∀ q : Fin 20, ∃ t : Fin grid0.N, win0_5.index t = ![q.val, 0])

/-- What point t writes back is block t of the layer of the arrays the call is entered with. -/
theorem flushed_eq (c : Dev nD) (t : Fin cfg0.N) :
    (dat0 V c).flushed 5 t = ((cfg0.win 5).blk t).view.read (Elt Ideal)
      (layer (V c main_v22) (V c main_arg0) (V c main_arg2) (V c main_v23) (V c main_arg4)) := by
  show (cfg0.win 5).cut (grid0.coords t) ((dat0 V c).after 5 t) = _
  rw [after0_5]
  unfold out0_5
  rw [View.canon_unit_zero origin_zero]
  simp only [View.ld_unit_zero (S := S5000x64) origin_zero, View.ld_unit_zero (S := S128x64) origin_zero,
    View.ld_unit_zero (S := S1x128) origin_zero]
  obtain ⟨e00, e01, e10, e11, e20, e21, e30, e31, e40, e41, e51, -⟩ := index_facts t
  funext j
  refine (stored_apply _ _ _ _ _ j).trans ?_
  rw [View.read_apply]
  have hj0 : (j 0).val < 5000 := (j 0).isLt
  have hj1 : (j 1).val < 128 := (j 1).isLt
  refine SageLayer.cell_congr (fun k => ?_) (fun k => ?_) (fun k => ?_) (fun k => ?_) ?_
  · -- the means: row 5000·t + (j 0) of the array, the contracted coordinate unmoved
    show V c main_v22 (((cfg0.win 0).blk t).view.emb (ix2 (rowOf j) k)) = V c main_v22 (ix2 (rowOf (((cfg0.win 5).blk t).view.emb j)) k)
    refine congrArg (V c main_v22) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 64 + 1 * k.val = k.val; omega
  · -- the features: the same row
    show V c main_arg0 (((cfg0.win 1).blk t).view.emb (ix2 (rowOf j) k)) = V c main_arg0 (ix2 (rowOf (((cfg0.win 5).blk t).view.emb j)) k)
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 64 + 1 * k.val = k.val; omega
  · -- the left weight: row (j 1), the whole matrix being one block
    show V c main_arg2 (((cfg0.win 2).blk t).view.emb (ix2 (colOf j) k)) = V c main_arg2 (ix2 (colOf (((cfg0.win 5).blk t).view.emb j)) k)
    refine congrArg (V c main_arg2) (funext fun a => Fin.ext ?_)
    match a with
    | ⟨0, _⟩ => show win0_2.index t (0 : Fin 2) * 128 + 1 * (j 1).val = win0_5.index t (1 : Fin 2) * 128 + 1 * (j 1).val; omega
    | ⟨1, _⟩ => show win0_2.index t (1 : Fin 2) * 64 + 1 * k.val = k.val; omega
  · -- the right weight
    show V c main_arg4 (((cfg0.win 4).blk t).view.emb (ix2 (colOf j) k)) = V c main_arg4 (ix2 (colOf (((cfg0.win 5).blk t).view.emb j)) k)
    refine congrArg (V c main_arg4) (funext fun a => Fin.ext ?_)
    match a with
    | ⟨0, _⟩ => show win0_4.index t (0 : Fin 2) * 128 + 1 * (j 1).val = win0_5.index t (1 : Fin 2) * 128 + 1 * (j 1).val; omega
    | ⟨1, _⟩ => show win0_4.index t (1 : Fin 2) * 64 + 1 * k.val = k.val; omega
  · -- the bias row
    show V c main_v23 (((cfg0.win 3).blk t).view.emb (ix2 (0 : Fin 1) (colOf j))) = V c main_v23 (ix2 (0 : Fin 1) (colOf (((cfg0.win 5).blk t).view.emb j)))
    refine congrArg (V c main_v23) (funext fun a => Fin.ext ?_)
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega

/-- An index of the output array is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- The row blocks tile the output: row r lies in the block of point r / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the call its output array is the layer of the arrays it was entered with. -/
theorem output_eq (c : Dev nD) :
    (dat0 V c).arrAt 5 cfg0.N = layer (V c main_v22) (V c main_arg0) (V c main_arg2) (V c main_v23) (V c main_arg4) :=
  (dat0 V c).arrAt_eq_of_cover 5 _ (fun t _ => flushed_eq V c t) covered

end Cert.KernelIdeal.Layer1

end
-- ==== Proof.Layer2Array.lean ====
/-
  The second pallas_call's output array, as one function of the arrays the call is entered with.

  The call walks 20 row blocks of 5000 rows. At block t it reads rows 5000·t … 5000·t+4999 of the mean
  matrix and of the hidden-feature matrix (the first call's output), the two whole weight matrices and the bias row, and writes the same rows
  of the 100000 × 64 output. Every output entry (r, c) therefore depends only on row r of the two
  row-blocked inputs, row c of each weight matrix and entry c of the bias: it is the layer's entry
  `SageLayer.cell`. The 20 blocks tile the output, so after the call the whole array is that function.
-/
import proofs.«176872_j6949257085648_1_alg».proof.Proof.Gen.KernelIdeal.Frame
import proofs.«176872_j6949257085648_1_alg».proof.Proof.DenseCell
import Idealize.ShloMosaic.Lib.Pipeline.Value

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem LibMatmul
open Idealize.ShloMosaic.Pipeline (Dat Cfg Window)

variable (V : (c : Dev nD) → (b : Ref sig .tc) → Buf (Elt Ideal) ((c : Thread nD τ).loc b))

/-- The layer as a whole-array function: entry (r, c) from row r of the means and of the features, row c of each
    weight matrix, entry c of the bias row. -/
def layer (mean x : S100000x128.Idx → EReal) (wl : S64x128.Idx → EReal) (b : S1x64.Idx → EReal) (wr : S64x128.Idx → EReal) :
    S100000x64.Idx → EReal := fun i =>
  SageLayer.cell (fun k : Fin 128 => mean (ix2 (rowOf i) k)) (fun k : Fin 128 => x (ix2 (rowOf i) k))
    (fun k : Fin 128 => wl (ix2 (colOf i) k)) (fun k : Fin 128 => wr (ix2 (colOf i) k)) (b (ix2 (0 : Fin 1) (colOf i)))

theorem origin_zero : (![0, 0] : Fin 2 → Nat) = fun _ => 0 := funext fun a => by fin_cases a <;> rfl

/-- The body's stored value at an index of the block: the layer's entry of the loaded blocks. -/
theorem stored_apply (x0 x1 : Vec Ideal S5000x128 .f32) (x2 x4 : Vec Ideal S64x128 .f32) (x3 : Vec Ideal S1x64 .f32)
    (j : S5000x64.Idx) :
    k1_pay1 (F := Ideal) x0 x1 x2 x4 x3 j
      = SageLayer.cell (fun k : Fin 128 => x0 (ix2 (rowOf j) k)) (fun k : Fin 128 => x1 (ix2 (rowOf j) k))
          (fun k : Fin 128 => x2 (ix2 (colOf j) k)) (fun k : Fin 128 => x4 (ix2 (colOf j) k)) (x3 (ix2 (0 : Fin 1) (colOf j))) := by
  unfold k1_pay1
  rw [shapeCast_self, shapeCast_self, shapeCast_self]
  exact SageLayer.dense_apply 5000 128 64 x0 x1 x2 x4 x3 bitsLt_bf16_f32 transposes_S64x128_p1_0_S128x64
    broadcasts_S1x64_S5000x64 j

/-- The printed index maps over the 20 grid points: the row-blocked windows move with the output's row block, the
    weights and the bias stay at block 0, and the output's row block is the point's number. -/
theorem index_facts : ∀ t : Fin cfg1.N,
      win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every row block of the output is some point's. -/
theorem index_onto : ∀ q : Fin 20, ∃ t : Fin cfg1.N, win1_5.index t = ![q.val, 0] :=
  (by decide +kernel : ∀ q : Fin 20, ∃ t : Fin grid1.N, win1_5.index t = ![q.val, 0])

/-- What point t writes back is block t of the layer of the arrays the call is entered with. -/
theorem flushed_eq (c : Dev nD) (t : Fin cfg1.N) :
    (dat1 V c).flushed 5 t = ((cfg1.win 5).blk t).view.read (Elt Ideal)
      (layer (V c main_v43) (V c main_v24) (V c main_arg5) (V c main_v44) (V c main_arg7)) := by
  show (cfg1.win 5).cut (grid1.coords t) ((dat1 V c).after 5 t) = _
  rw [after1_5]
  unfold out1_5
  rw [View.canon_unit_zero origin_zero]
  simp only [View.ld_unit_zero (S := S5000x128) origin_zero, View.ld_unit_zero (S := S64x128) origin_zero,
    View.ld_unit_zero (S := S1x64) origin_zero]
  obtain ⟨e00, e01, e10, e11, e20, e21, e30, e31, e40, e41, e51, -⟩ := index_facts t
  funext j
  refine (stored_apply _ _ _ _ _ j).trans ?_
  rw [View.read_apply]
  have hj0 : (j 0).val < 5000 := (j 0).isLt
  have hj1 : (j 1).val < 64 := (j 1).isLt
  refine SageLayer.cell_congr (fun k => ?_) (fun k => ?_) (fun k => ?_) (fun k => ?_) ?_
  · -- the means: row 5000·t + (j 0) of the array, the contracted coordinate unmoved
    show V c main_v43 (((cfg1.win 0).blk t).view.emb (ix2 (rowOf j) k)) = V c main_v43 (ix2 (rowOf (((cfg1.win 5).blk t).view.emb j)) k)
    refine congrArg (V c main_v43) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · -- the features: the same row
    show V c main_v24 (((cfg1.win 1).blk t).view.emb (ix2 (rowOf j) k)) = V c main_v24 (ix2 (rowOf (((cfg1.win 5).blk t).view.emb j)) k)
    refine congrArg (V c main_v24) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · -- the left weight: row (j 1), the whole matrix being one block
    show V c main_arg5 (((cfg1.win 2).blk t).view.emb (ix2 (colOf j) k)) = V c main_arg5 (ix2 (colOf (((cfg1.win 5).blk t).view.emb j)) k)
    refine congrArg (V c main_arg5) (funext fun a => Fin.ext ?_)
    match a with
    | ⟨0, _⟩ => show win1_2.index t (0 : Fin 2) * 64 + 1 * (j 1).val = win1_5.index t (1 : Fin 2) * 64 + 1 * (j 1).val; omega
    | ⟨1, _⟩ => show win1_2.index t (1 : Fin 2) * 128 + 1 * k.val = k.val; omega
  · -- the right weight
    show V c main_arg7 (((cfg1.win 4).blk t).view.emb (ix2 (colOf j) k)) = V c main_arg7 (ix2 (colOf (((cfg1.win 5).blk t).view.emb j)) k)
    refine congrArg (V c main_arg7) (funext fun a => Fin.ext ?_)
    match a with
    | ⟨0, _⟩ => show win1_4.index t (0 : Fin 2) * 64 + 1 * (j 1).val = win1_5.index t (1 : Fin 2) * 64 + 1 * (j 1).val; omega
    | ⟨1, _⟩ => show win1_4.index t (1 : Fin 2) * 128 + 1 * k.val = k.val; omega
  · -- the bias row
    show V c main_v44 (((cfg1.win 3).blk t).view.emb (ix2 (0 : Fin 1) (colOf j))) = V c main_v44 (ix2 (0 : Fin 1) (colOf (((cfg1.win 5).blk t).view.emb j)))
    refine congrArg (V c main_v44) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_5.index t (1 : Fin 2) * 64 + 1 * (j 1).val; omega

/-- An index of the output array is in point t's block iff each coordinate is in the block's range on its axis. -/
theorem mem_block (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- The row blocks tile the output: row r lies in the block of point r / 5000. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the call its output array is the layer of the arrays it was entered with. -/
theorem output_eq (c : Dev nD) :
    (dat1 V c).arrAt 5 cfg1.N = layer (V c main_v43) (V c main_v24) (V c main_arg5) (V c main_v44) (V c main_arg7) :=
  (dat1 V c).arrAt_eq_of_cover 5 _ (fun t _ => flushed_eq V c t) covered

end Cert.KernelIdeal.Layer2

end
-- ==== Proof.RefLayers.lean ====
/-
  The reference's two layers are the kernel's two whole-array functions.

  The reference computes each layer as  relu( (mean · Wlᵀ + b) + x · Wrᵀ )  with two general dot products, the
  weights transposed by a separate operation and the bias broadcast from a vector. Read at an index (r, c) each
  dot product is the sum over k of (row r of the left operand)(k) · (row c of the weight)(k), the broadcast bias is
  entry c of the vector, and the three summands are grouped (A + b) + B where the kernel groups (A + B) + b:
  the same extended real, addition being commutative and associative. The bias vector and the one-row matrix
  the kernel's host code reshapes it to hold the same numbers.
-/
import proofs.«176872_j6949257085648_1_alg».proof.Proof.Gen.ReferenceIdeal.Read
import proofs.«176872_j6949257085648_1_alg».proof.Proof.Layer1Array
import proofs.«176872_j6949257085648_1_alg».proof.Proof.Layer2Array

set_option maxRecDepth 16384

noncomputable section

namespace Cert.ReferenceIdeal.Layers

open Cert.ReferenceIdeal Cert.ReferenceIdeal.Gen Cert.ReferenceIdeal.Read
open Idealize.ShloMosaic Idealize.ShloMosaic.ValueIdx LibMatmul

/-- A vector reshaped to a one-row matrix, read in that row. -/
theorem row_of_vector {n : Nat} (v : (⟨1, ![n]⟩ : Shape).Idx → EReal) (h : (⟨1, ![n]⟩ : Shape).ShapeCasts ⟨2, ![1, n]⟩)
    (c : Fin n) : shapeCast ⟨2, ![1, n]⟩ v h (ix2 (0 : Fin 1) c) = v (ix1 c) :=
  (shapeCast_addUnit_apply ![n] v h (ix2 (0 : Fin 1) c)).trans
    (congrArg v (funext fun a => by match a with | ⟨0, _⟩ => rfl))

/-- The first layer: the reference's hidden features are the kernel's first whole-array function of the
    reference's own mean stage. -/
theorem hidden_eq (x0 : (⟨S100000x64, .f32⟩ : BufTy).Contents (Elt Ideal)) (x1 : (⟨S2x1600000, .i32⟩ : BufTy).Contents (Elt Ideal))
    (x2 : (⟨S128x64, .f32⟩ : BufTy).Contents (Elt Ideal)) (x3 : (⟨S128, .f32⟩ : BufTy).Contents (Elt Ideal))
    (x4 : (⟨S128x64, .f32⟩ : BufTy).Contents (Elt Ideal)) :
    val_main_v31 (F := Ideal) x0 x1 x2 x3 x4
      = Cert.KernelIdeal.Layer1.layer (val_main_v22 (F := Ideal) x0 x1) x0 x2
          (shapeCast Cert.KernelIdeal.S1x128 x3 Cert.KernelIdeal.Facts₀.shapeCasts_S128_S1x128) x4 := by
  funext i
  rw [val_main_v31_apply, val_main_v30_apply, val_main_v27_apply, val_main_v24_apply, val_main_v26_apply, val_main_v25_apply,
    val_main_v29_apply, val_main_call0_v0_apply, val_main_call0_cst_apply]
  simp only [val_main_v23_apply, val_main_v28_apply]
  unfold Cert.KernelIdeal.Layer1.layer
  refine (SageLayer.cell_regroup (K := 64) (fun k => val_main_v22 (F := Ideal) x0 x1 (lidx_main_v24 i k))
    (fun k => x0 (lidx_main_v29 i k)) (fun k => x2 (idx_main_v23 (ridx_main_v24 i k)))
    (fun k => x4 (idx_main_v28 (ridx_main_v29 i k))) (x3 (idx_main_v25 (idx_main_v26 i)))).trans ?_
  refine SageLayer.cell_congr (fun k => ?_) (fun k => ?_) (fun k => ?_) (fun k => ?_) ?_
  · exact congrArg (val_main_v22 (F := Ideal) x0 x1) (funext fun a => by match a with | ⟨0, _⟩ => rfl | ⟨1, _⟩ => rfl)
  · exact congrArg x0 (funext fun a => by match a with | ⟨0, _⟩ => rfl | ⟨1, _⟩ => rfl)
  · exact congrArg x2 (funext fun a => by match a with | ⟨0, _⟩ => rfl | ⟨1, _⟩ => rfl)
  · exact congrArg x4 (funext fun a => by match a with | ⟨0, _⟩ => rfl | ⟨1, _⟩ => rfl)
  · exact (congrArg x3 (funext fun a => by match a with | ⟨0, _⟩ => rfl)).trans
      (row_of_vector (n := 128) x3 Cert.KernelIdeal.Facts₀.shapeCasts_S128_S1x128 (colOf i)).symm

/-- The second layer: the reference's result is the kernel's second whole-array function of the reference's own
    second mean stage and hidden features. -/
theorem result_eq (x0 : (⟨S100000x64, .f32⟩ : BufTy).Contents (Elt Ideal)) (x1 : (⟨S2x1600000, .i32⟩ : BufTy).Contents (Elt Ideal))
    (x2 : (⟨S128x64, .f32⟩ : BufTy).Contents (Elt Ideal)) (x3 : (⟨S128, .f32⟩ : BufTy).Contents (Elt Ideal))
    (x4 : (⟨S128x64, .f32⟩ : BufTy).Contents (Elt Ideal)) (x5 : (⟨S64x128, .f32⟩ : BufTy).Contents (Elt Ideal))
    (x6 : (⟨S64, .f32⟩ : BufTy).Contents (Elt Ideal)) (x7 : (⟨S64x128, .f32⟩ : BufTy).Contents (Elt Ideal)) :
    val_main_v59 (F := Ideal) x0 x1 x2 x3 x4 x5 x6 x7
      = Cert.KernelIdeal.Layer2.layer (val_main_v50 (F := Ideal) x0 x1 x2 x3 x4) (val_main_v31 (F := Ideal) x0 x1 x2 x3 x4) x5
          (shapeCast Cert.KernelIdeal.S1x64 x6 Cert.KernelIdeal.Facts₀.shapeCasts_S64_S1x64) x7 := by
  funext i
  rw [val_main_v59_apply, val_main_v58_apply, val_main_v55_apply, val_main_v52_apply, val_main_v54_apply, val_main_v53_apply,
    val_main_v57_apply, val_main_call1_v0_apply, val_main_call1_cst_apply]
  simp only [val_main_v51_apply, val_main_v56_apply]
  unfold Cert.KernelIdeal.Layer2.layer
  refine (SageLayer.cell_regroup (K := 128) (fun k => val_main_v50 (F := Ideal) x0 x1 x2 x3 x4 (lidx_main_v52 i k))
    (fun k => val_main_v31 (F := Ideal) x0 x1 x2 x3 x4 (lidx_main_v57 i k)) (fun k => x5 (idx_main_v51 (ridx_main_v52 i k)))
    (fun k => x7 (idx_main_v56 (ridx_main_v57 i k))) (x6 (idx_main_v53 (idx_main_v54 i)))).trans ?_
  refine SageLayer.cell_congr (fun k => ?_) (fun k => ?_) (fun k => ?_) (fun k => ?_) ?_
  · exact congrArg (val_main_v50 (F := Ideal) x0 x1 x2 x3 x4) (funext fun a => by match a with | ⟨0, _⟩ => rfl | ⟨1, _⟩ => rfl)
  · exact congrArg (val_main_v31 (F := Ideal) x0 x1 x2 x3 x4) (funext fun a => by match a with | ⟨0, _⟩ => rfl | ⟨1, _⟩ => rfl)
  · exact congrArg x5 (funext fun a => by match a with | ⟨0, _⟩ => rfl | ⟨1, _⟩ => rfl)
  · exact congrArg x7 (funext fun a => by match a with | ⟨0, _⟩ => rfl | ⟨1, _⟩ => rfl)
  · exact (congrArg x6 (funext fun a => by match a with | ⟨0, _⟩ => rfl)).trans
      (row_of_vector (n := 64) x6 Cert.KernelIdeal.Facts₀.shapeCasts_S64_S1x64 (colOf i)).symm

end Cert.ReferenceIdeal.Layers

end
-- ==== Proof.KernelResult.lean ====
/-
  The idealized kernel's result, stage by stage, is the reference's term of the same arguments.

  Before each pallas_call the host code builds the neighbourhood mean with the same gather, scatter-add,
  degree count, clamp and division as the reference, operation for operation, so each mean stage IS the
  reference's stage of the same inputs; the first call's output is the first layer of that mean (the
  reference's hidden features), the second host stretch gathers from that output, and the second call's
  output is the second layer: the reference's result.
-/
import proofs.«176872_j6949257085648_1_alg».proof.Proof.KernelRun
import proofs.«176872_j6949257085648_1_alg».proof.Proof.RefLayers
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first host stretch -/

set_option maxHeartbeats 8000000 in
/-- The first mean stage is the reference's. -/
theorem mean1_eq (c : Dev nD) :
    V1 m ρ c main_v22 = Cert.ReferenceIdeal.Read.val_main_v22 (F := Ideal) (m ((c.tc : Thread nD τ).loc main_arg0)) (m ((c.tc : Thread nD τ).loc main_arg1)) := by
  show StableHlo.after hostOps0 (W0 m ρ c) (Proc.devRef .tc main_v22) = _
  after_results_simp
  rfl

set_option maxHeartbeats 8000000 in
/-- The bias of the first layer, reshaped to one row. -/
theorem bias1_eq (c : Dev nD) :
    V1 m ρ c main_v23 = shapeCast S1x128 (m ((c.tc : Thread nD τ).loc main_arg3)) Facts₀.shapeCasts_S128_S1x128 := by
  show StableHlo.after hostOps0 (W0 m ρ c) (Proc.devRef .tc main_v23) = _
  after_results_simp
  rfl

set_option maxHeartbeats 8000000 in
/-- The first host stretch writes no argument: each is read back as launched. -/
theorem V1_arg0 (c : Dev nD) : V1 m ρ c main_arg0 = m ((c.tc : Thread nD τ).loc main_arg0) := by
  show StableHlo.after hostOps0 (W0 m ρ c) (Proc.devRef .tc main_arg0) = _
  after_results_simp
set_option maxHeartbeats 8000000 in
theorem V1_arg2 (c : Dev nD) : V1 m ρ c main_arg2 = m ((c.tc : Thread nD τ).loc main_arg2) := by
  show StableHlo.after hostOps0 (W0 m ρ c) (Proc.devRef .tc main_arg2) = _
  after_results_simp
set_option maxHeartbeats 8000000 in
theorem V1_arg4 (c : Dev nD) : V1 m ρ c main_arg4 = m ((c.tc : Thread nD τ).loc main_arg4) := by
  show StableHlo.after hostOps0 (W0 m ρ c) (Proc.devRef .tc main_arg4) = _
  after_results_simp

/-! ## After the first pallas_call -/

/-- The first call's output array holds the reference's hidden features. -/
theorem hidden_eq (c : Dev nD) :
    W2 m ρ c (Proc.devRef .tc main_v24)
      = Cert.ReferenceIdeal.Read.val_main_v31 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (W2_arr m ρ c 5).trans ?_
  rw [Layer1.output_eq (V1 m ρ) c, mean1_eq, bias1_eq, V1_arg0, V1_arg2, V1_arg4]
  exact (Cert.ReferenceIdeal.Layers.hidden_eq _ _ _ _ _).symm

set_option maxHeartbeats 8000000 in
/-- The source indices, computed by the first stretch, outlive the first call. -/
theorem W2_src (c : Dev nD) :
    W2 m ρ c (Proc.devRef .tc main_v1)
      = shapeCast S1600000 (extractStridedSlice S1x1600000 ![0, 0] (m ((c.tc : Thread nD τ).loc main_arg1)) Facts₀.slices_S2x1600000_S1x1600000_0_0)
          Facts₀.shapeCasts_S1x1600000_S1600000 := by
  refine (W2_of_ne m ρ c main_v1 (by decide)).trans ?_
  show StableHlo.after hostOps0 (W0 m ρ c) (Proc.devRef .tc main_v1) = _
  after_results_simp
  rfl

set_option maxHeartbeats 8000000 in
/-- So do the destination indices. -/
theorem W2_dst (c : Dev nD) :
    W2 m ρ c (Proc.devRef .tc main_v3)
      = shapeCast S1600000 (extractStridedSlice S1x1600000 ![1, 0] (m ((c.tc : Thread nD τ).loc main_arg1)) Facts₀.slices_S2x1600000_S1x1600000_1_0)
          Facts₀.shapeCasts_S1x1600000_S1600000 := by
  refine (W2_of_ne m ρ c main_v3 (by decide)).trans ?_
  show StableHlo.after hostOps0 (W0 m ρ c) (Proc.devRef .tc main_v3) = _
  after_results_simp
  rfl

set_option maxHeartbeats 8000000 in
/-- An argument the first call does not stage is still as launched after it. -/
theorem W2_arg5 (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results_simp
set_option maxHeartbeats 8000000 in
theorem W2_arg6 (c : Dev nD) : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results_simp
set_option maxHeartbeats 8000000 in
theorem W2_arg7 (c : Dev nD) : W2 m ρ c (Proc.devRef .tc main_arg7) = m ((c.tc : Thread nD τ).loc main_arg7) := by
  refine (W2_of_ne m ρ c main_arg7 (by decide)).trans ?_
  show StableHlo.after hostOps0 (W0 m ρ c) (Proc.devRef .tc main_arg7) = _
  after_results_simp

/-! ## The second host stretch -/

set_option maxHeartbeats 8000000 in
/-- The second mean stage, gathered from the first call's output, is the reference's. -/
theorem mean2_eq (c : Dev nD) :
    V3 m ρ c main_v43
      = Cert.ReferenceIdeal.Read.val_main_v50 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  show StableHlo.after hostOps1 (W2 m ρ c) (Proc.devRef .tc main_v43) = _
  after_results_simp
  rw [hidden_eq, W2_src, W2_dst]
  rfl

set_option maxHeartbeats 8000000 in
/-- The second stretch leaves the first call's output in place. -/
theorem V3_hidden (c : Dev nD) : V3 m ρ c main_v24 = W2 m ρ c (Proc.devRef .tc main_v24) := by
  show StableHlo.after hostOps1 (W2 m ρ c) (Proc.devRef .tc main_v24) = _
  after_results_simp

set_option maxHeartbeats 8000000 in
/-- The bias of the second layer, reshaped to one row. -/
theorem bias2_eq (c : Dev nD) :
    V3 m ρ c main_v44 = shapeCast S1x64 (m ((c.tc : Thread nD τ).loc main_arg6)) Facts₀.shapeCasts_S64_S1x64 := by
  show StableHlo.after hostOps1 (W2 m ρ c) (Proc.devRef .tc main_v44) = _
  after_results_simp
  rw [W2_arg6]
  rfl

set_option maxHeartbeats 8000000 in
theorem V3_arg5 (c : Dev nD) : V3 m ρ c main_arg5 = m ((c.tc : Thread nD τ).loc main_arg5) := by
  show StableHlo.after hostOps1 (W2 m ρ c) (Proc.devRef .tc main_arg5) = _
  after_results_simp
  exact W2_arg5 m ρ c
set_option maxHeartbeats 8000000 in
theorem V3_arg7 (c : Dev nD) : V3 m ρ c main_arg7 = m ((c.tc : Thread nD τ).loc main_arg7) := by
  show StableHlo.after hostOps1 (W2 m ρ c) (Proc.devRef .tc main_arg7) = _
  after_results_simp
  exact W2_arg7 m ρ c

/-! ## After the second pallas_call -/

/-- The result buffer holds the reference's result term of the same arguments. -/
theorem result_eq (c : Dev nD) :
    W4 m ρ c (Proc.devRef .tc main_v45)
      = Cert.ReferenceIdeal.Read.val_main_v59 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (W4_arr m ρ c 5).trans ?_
  rw [Layer2.output_eq (V3 m ρ) c, mean2_eq, V3_hidden, hidden_eq, bias2_eq, V3_arg5, V3_arg7]
  exact (Cert.ReferenceIdeal.Layers.result_eq _ _ _ _ _ _ _ _).symm

end Cert.KernelIdeal.Result

end
-- ==== Proof.lean ====
/-
  Two SAGE layers with mean aggregation: the Pallas kernel against its jnp reference, over the extended reals.

  Both programs compute, twice,
      h'(r, c) = max( Σ_k mean(r, k)·Wl(c, k) + Σ_k h(r, k)·Wr(c, k) + b(c), 0 ),
  where mean = (scatter-add over the edges of the gathered source rows of h) / max(in-degree, 1).
  The mean is built by the same host operations in both programs. The kernel evaluates the dense part in a
  pallas_call over 20 blocks of 5000 rows, narrowing its operands before two matrix products with transposed
  weights (the narrowing is the identity on extended reals) and adding the bias last; the reference uses two
  general dot products and adds the bias between them. Entry by entry the two are one extended real: a
  matrix product is the same finite sum on either side, and the three summands differ only in grouping,
  which commutativity and associativity of addition settle — no finiteness of the inputs is used.

  The three frames are the generated ones (the reference's is its generated run with the result dropped), the
  idealization rewrote no operation, and the value claim chains: the kernel's run with its result named, the
  fold of @main read stage by stage against the reference's stages, and the reference's generated run.
-/
import proofs.«176872_j6949257085648_1_alg».proof.Defs
import proofs.«176872_j6949257085648_1_alg».proof.Proof.Gen.Kernel
import proofs.«176872_j6949257085648_1_alg».proof.Proof.Gen.Kernel.Skeleton
import proofs.«176872_j6949257085648_1_alg».proof.Proof.Gen.Kernel.Launch
import proofs.«176872_j6949257085648_1_alg».proof.Proof.Gen.Kernel.Points
import proofs.«176872_j6949257085648_1_alg».proof.Proof.Gen.Kernel.Frame
import proofs.«176872_j6949257085648_1_alg».proof.Proof.Gen.KernelIdeal
import proofs.«176872_j6949257085648_1_alg».proof.Proof.Gen.KernelIdeal.Skeleton
import proofs.«176872_j6949257085648_1_alg».proof.Proof.Gen.KernelIdeal.Launch
import proofs.«176872_j6949257085648_1_alg».proof.Proof.Gen.KernelIdeal.Points
import proofs.«176872_j6949257085648_1_alg».proof.Proof.Gen.KernelIdeal.Frame
import proofs.«176872_j6949257085648_1_alg».proof.Proof.Gen.ReferenceIdeal
import proofs.«176872_j6949257085648_1_alg».proof.Proof.Gen.ReferenceIdeal.Run
import proofs.«176872_j6949257085648_1_alg».proof.Proof.Gen.ReferenceIdeal.Read
import proofs.«176872_j6949257085648_1_alg».proof.Proof.Gen.Pre_finite_inputs
import proofs.«176872_j6949257085648_1_alg».proof.Proof.KernelResult
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories that agree on the arguments both idealized programs end with the same result array: the
    reference's result term of the kernel's arguments. -/
theorem algebraic : Cert.algebraic_KernelIdeal_ReferenceIdeal := by
  intro m ρ m' ρ' _ hagree
  refine ⟨fun c => Cert.ReferenceIdeal.Read.val_main_v59 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result_eq m ρ c), (h c).2⟩)
      (Cert.KernelIdeal.Run.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v59_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
